-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x4096 : Shape := ⟨3, ![8, 1024, 4096]⟩
abbrev S4096x4096 : Shape := ⟨2, ![4096, 4096]⟩
abbrev S4096x64 : Shape := ⟨2, ![4096, 64]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S8x1024x4096 : S_.BroadcastsInDim S8x1024x4096 (![] : Fin 0 → Fin S8x1024x4096.rank)
  reducesTo_S8x1024x4096_S_d0_1_2 : S8x1024x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg5 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg5
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S8x1024x4096 .f32) (main_arg1 : IVec S4096x4096 32) (main_arg2 : FVec F S4096x64 .f32) (main_arg3 : FVec F S4096 .f32) (main_arg4 : FVec F S4096x16 .f32) (main_arg5 : FVec F S16x4096 .f32) : IVec S_ 1 :=
  let main_v0 : FVec F S8x1024x4096 .f32 := Host.absf main_arg0
  let main_cst : FVec F S_ .f32 := constant S_ .f32 0x7F800000#32
  let main_v1 : FVec F S8x1024x4096 .f32 := broadcastInDim S8x1024x4096 ![] bcast_S_S8x1024x4096 main_cst
  let main_v2 : IVec S8x1024x4096 1 := cmpf .olt main_v0 main_v1
  let main_c : IVec S_ 1 := constantI S_ 1 1#1
  let main_v3 : IVec S_ 1 := (fun x v => Host.reduce IntOp.andi x v reducesTo_S8x1024x4096_S_d0_1_2 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg4
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg5 main_v13 main_v16
-- ==== Kernel.lean ====
abbrev S8x1024x4096 : Shape := ⟨3, ![8, 1024, 4096]⟩
abbrev S4096x4096 : Shape := ⟨2, ![4096, 4096]⟩
abbrev S4096x64 : Shape := ⟨2, ![4096, 64]⟩
abbrev S4096 : Shape := ⟨1, ![4096]⟩
abbrev S4096x16 : Shape := ⟨2, ![4096, 16]⟩
abbrev S16x4096 : Shape := ⟨2, ![16, 4096]⟩
abbrev S8192x4096 : Shape := ⟨2, ![8192, 4096]⟩
abbrev S1x4096 : Shape := ⟨2, ![1, 4096]⟩
abbrev S256x4096 : Shape := ⟨2, ![256, 4096]⟩
abbrev S512x4096 : Shape := ⟨2, ![512, 4096]⟩
abbrev S512x64 : Shape := ⟨2, ![512, 64]⟩
abbrev S1x512 : Shape := ⟨2, ![1, 512]⟩
abbrev S16x512 : Shape := ⟨2, ![16, 512]⟩
abbrev S256x512 : Shape := ⟨2, ![256, 512]⟩
abbrev S256x16 : Shape := ⟨2, ![256, 16]⟩
abbrev S256x1024 : Shape := ⟨2, ![256, 1024]⟩
abbrev S512x1024 : Shape := ⟨2, ![512, 1024]⟩
abbrev S512x16 : Shape := ⟨2, ![512, 16]⟩
abbrev S512x16x64 : Shape := ⟨3, ![512, 16, 64]⟩
abbrev S512x16x1 : Shape := ⟨3, ![512, 16, 1]⟩
abbrev S1024x16 : Shape := ⟨2, ![1024, 16]⟩

abbrev nBuf : Space → Nat
  | .hbm => 10
  | .vmem => 15
  | .smem => 0
  | _ => 0

abbrev bufTy : (tb : Table) → Fin (tcTables nBuf tb) → BufTy
  | .hbm, ⟨0, _⟩ => ⟨S8x1024x4096, .f32⟩
  | .hbm, ⟨1, _⟩ => ⟨S4096x4096, .i32⟩
  | .hbm, ⟨2, _⟩ => ⟨S4096x64, .f32⟩
  | .hbm, ⟨3, _⟩ => ⟨S4096, .f32⟩
  | .hbm, ⟨4, _⟩ => ⟨S4096x16, .f32⟩
  | .hbm, ⟨5, _⟩ => ⟨S16x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8x1024x4096, .f32⟩
  | .local _ .vmem, ⟨0, _⟩ => ⟨S256x4096, .f32⟩
  | .local _ .vmem, ⟨1, _⟩ => ⟨S256x4096, .f32⟩
  | .local _ .vmem, ⟨2, _⟩ => ⟨S512x4096, .i32⟩
  | .local _ .vmem, ⟨3, _⟩ => ⟨S512x4096, .i32⟩
  | .local _ .vmem, ⟨4, _⟩ => ⟨S512x64, .f32⟩
  | .local _ .vmem, ⟨5, _⟩ => ⟨S512x64, .f32⟩
  | .local _ .vmem, ⟨6, _⟩ => ⟨S1x512, .f32⟩
  | .local _ .vmem, ⟨7, _⟩ => ⟨S1x512, .f32⟩
  | .local _ .vmem, ⟨8, _⟩ => ⟨S4096x16, .f32⟩
  | .local _ .vmem, ⟨9, _⟩ => ⟨S16x512, .f32⟩
  | .local _ .vmem, ⟨10, _⟩ => ⟨S16x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x16, .f32⟩
  | _, _ => ⟨S8x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S4096x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S8x1024x4096_S8192x4096 : S8x1024x4096.ShapeCasts S8192x4096
  shapeCasts_S4096_S1x4096 : S4096.ShapeCasts S1x4096
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S256x4096_S256x1024_0_0 : ∀ a, (![0, 0] : Fin 2 → Nat) a + S256x1024.size a ≤ S256x4096.size a
  h_S256x1024 : 0 < S256x1024.numel
  shapeCasts_S256x1024_S256x1024 : S256x1024.ShapeCasts S256x1024
  inb_S512x4096_S512x1024_0_0 : ∀ a, (![0, 0] : Fin 2 → Nat) a + S512x1024.size a ≤ S512x4096.size a
  h_S512x1024 : 0 < S512x1024.numel
  inb_S512x64_S512x16_0_0 : ∀ a, (![0, 0] : Fin 2 → Nat) a + S512x16.size a ≤ S512x64.size a
  h_S512x16 : 0 < S512x16.numel
  shapeCasts_S512x1024_S512x16x64 : S512x1024.ShapeCasts S512x16x64
  shapeCasts_S512x16_S512x16x1 : S512x16.ShapeCasts S512x16x1
  broadcasts_S512x16x1_S512x16x64 : S512x16x1.Broadcasts S512x16x64
  shapeCasts_S512x16x64_S512x1024 : S512x16x64.ShapeCasts S512x1024
  bitsLt_bf16_f32 : FTy.bits .bf16 < FTy.bits .f32
  inb_S4096x16_S1024x16_0_0 : ∀ a, (![0, 0] : Fin 2 → Nat) a + S1024x16.size a ≤ S4096x16.size a
  h_S1024x16 : 0 < S1024x16.numel
  inb_S256x4096_S256x1024_0_1024 : ∀ a, (![0, 1024] : Fin 2 → Nat) a + S256x1024.size a ≤ S256x4096.size a
  inb_S512x4096_S512x1024_0_1024 : ∀ a, (![0, 1024] : Fin 2 → Nat) a + S512x1024.size a ≤ S512x4096.size a
  inb_S512x64_S512x16_0_16 : ∀ a, (![0, 16] : Fin 2 → Nat) a + S512x16.size a ≤ S512x64.size a
  inb_S4096x16_S1024x16_1024_0 : ∀ a, (![1024, 0] : Fin 2 → Nat) a + S1024x16.size a ≤ S4096x16.size a
  inb_S256x4096_S256x1024_0_2048 : ∀ a, (![0, 2048] : Fin 2 → Nat) a + S256x1024.size a ≤ S256x4096.size a
  inb_S512x4096_S512x1024_0_2048 : ∀ a, (![0, 2048] : Fin 2 → Nat) a + S512x1024.size a ≤ S512x4096.size a
  inb_S512x64_S512x16_0_32 : ∀ a, (![0, 32] : Fin 2 → Nat) a + S512x16.size a ≤ S512x64.size a
  inb_S4096x16_S1024x16_2048_0 : ∀ a, (![2048, 0] : Fin 2 → Nat) a + S1024x16.size a ≤ S4096x16.size a
  inb_S256x4096_S256x1024_0_3072 : ∀ a, (![0, 3072] : Fin 2 → Nat) a + S256x1024.size a ≤ S256x4096.size a
  inb_S512x4096_S512x1024_0_3072 : ∀ a, (![0, 3072] : Fin 2 → Nat) a + S512x1024.size a ≤ S512x4096.size a
  inb_S512x64_S512x16_0_48 : ∀ a, (![0, 48] : Fin 2 → Nat) a + S512x16.size a ≤ S512x64.size a
  inb_S4096x16_S1024x16_3072_0 : ∀ a, (![3072, 0] : Fin 2 → Nat) a + S1024x16.size a ≤ S4096x16.size a
  inb_S16x512_S16x512_0_0 : ∀ a, (![0, 0] : Fin 2 → Nat) a + S16x512.size a ≤ S16x512.size a
  h_S16x512 : 0 < S16x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  shapeCasts_S8192x4096_S8x1024x4096 : S8192x4096.ShapeCasts S8x1024x4096
  dot_S256x1024_S512x1024_S256x512_1_1_0_0_n_n_wf : DotDims.WF S256x1024 S512x1024 S256x512 [1] [1] [0] [0] [] []
  dot_S256x1024_S1024x16_S256x16_1_0_0_1_n_n_wf : DotDims.WF S256x1024 S1024x16 S256x16 [1] [0] [0] [1] [] []
  dot_S256x16_S16x512_S256x512_1_0_0_1_n_n_wf : DotDims.WF S256x16 S16x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .i32 = 32 ∨ (Rect.block (s := S4096x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S4096x64.size a
  hwx0_2 : ∀ i : grid0.Coords, EltTy.bits .f32 = 32 ∨ (Rect.block (s := S4096x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x16.size a ≤ S4096x16.size a
  hwx0_4 : ∀ i : grid0.Coords, EltTy.bits .f32 = 32 ∨ (Rect.block (s := S4096x16) S4096x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x512.size a ≤ S16x4096.size a
  hwx0_5 : ∀ i : grid0.Coords, EltTy.bits .f32 = 32 ∨ (Rect.block (s := S16x4096) S16x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S8192x4096.size a
  hwx0_6 : ∀ i : grid0.Coords, EltTy.bits .f32 = 32 ∨ (Rect.block (s := S8192x4096) S256x512.size (cc0_transform_6 i) (hinb0_6 i)).WholeWords (EltTy.packing .f32)

variable [Facts₀]

def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf
def dot_S256x1024_S1024x16_S256x16_1_0_0_1_n_n : DotDims S256x1024 S1024x16 S256x16 where
  lhsContracting := [1]
  rhsContracting := [0]
  lhsNonContracting := [0]
  rhsNonContracting := [1]
  lhsBatch := []
  rhsBatch := []
  wf := dot_S256x1024_S1024x16_S256x16_1_0_0_1_n_n_wf
def dot_S256x16_S16x512_S256x512_1_0_0_1_n_n : DotDims S256x16 S16x512 S256x512 where
  lhsContracting := [1]
  rhsContracting := [0]
  lhsNonContracting := [0]
  rhsNonContracting := [1]
  lhsBatch := []
  rhsBatch := []
  wf := dot_S256x16_S16x512_S256x512_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x1024x4096 : Shape := ⟨3, ![8, 1024, 4096]⟩
abbrev S4096x4096 : Shape := ⟨2, ![4096, 4096]⟩
abbrev S4096x64 : Shape := ⟨2, ![4096, 64]⟩
abbrev S4096 : Shape := ⟨1, ![4096]⟩
abbrev S4096x16 : Shape := ⟨2, ![4096, 16]⟩
abbrev S16x4096 : Shape := ⟨2, ![16, 4096]⟩
abbrev S_ : Shape := ⟨0, ![]⟩
abbrev S4096x64x64 : Shape := ⟨3, ![4096, 64, 64]⟩
abbrev S4096x64x1 : Shape := ⟨3, ![4096, 64, 1]⟩
abbrev S1x1x4096 : Shape := ⟨3, ![1, 1, 4096]⟩
abbrev S8x1024x16 : Shape := ⟨3, ![8, 1024, 16]⟩

abbrev nBuf : Space → Nat
  | .hbm => 25
  | .vmem => 0
  | .smem => 0
  | _ => 0

abbrev bufTy : (tb : Table) → Fin (tcTables nBuf tb) → BufTy
  | .hbm, ⟨0, _⟩ => ⟨S8x1024x4096, .f32⟩
  | .hbm, ⟨1, _⟩ => ⟨S4096x4096, .i32⟩
  | .hbm, ⟨2, _⟩ => ⟨S4096x64, .f32⟩
  | .hbm, ⟨3, _⟩ => ⟨S4096, .f32⟩
  | .hbm, ⟨4, _⟩ => ⟨S4096x16, .f32⟩
  | .hbm, ⟨5, _⟩ => ⟨S16x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x64x64, .f32⟩
  | .hbm, ⟨11, _⟩ => ⟨S4096x64x1, .f32⟩
  | .hbm, ⟨12, _⟩ => ⟨S4096x64x64, .f32⟩
  | .hbm, ⟨13, _⟩ => ⟨S4096x64x64, .f32⟩
  | .hbm, ⟨14, _⟩ => ⟨S4096x4096, .f32⟩
  | .hbm, ⟨15, _⟩ => ⟨S8x1024x4096, .f32⟩
  | .hbm, ⟨16, _⟩ => ⟨S1x1x4096, .f32⟩
  | .hbm, ⟨17, _⟩ => ⟨S8x1024x4096, .f32⟩
  | .hbm, ⟨18, _⟩ => ⟨S8x1024x4096, .f32⟩
  | .hbm, ⟨19, _⟩ => ⟨S8x1024x16, .f32⟩
  | .hbm, ⟨20, _⟩ => ⟨S8x1024x4096, .f32⟩
  | .hbm, ⟨21, _⟩ => ⟨S_, .f32⟩
  | .hbm, ⟨22, _⟩ => ⟨S8x1024x4096, .f32⟩
  | .hbm, ⟨23, _⟩ => ⟨S8x1024x4096, .f32⟩
  | .hbm, ⟨24, _⟩ => ⟨S8x1024x4096, .f32⟩
  | _, _ => ⟨S8x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  shapeCasts_S4096x4096_S4096x64x64 : S4096x4096.ShapeCasts S4096x64x64
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  bcast_S4096_S1x1x4096_2 : S4096.BroadcastsInDim S1x1x4096 (![2] : Fin 1 → Fin S1x1x4096.rank)
  bcast_S1x1x4096_S8x1024x4096_0_1_2 : S1x1x4096.BroadcastsInDim S8x1024x4096 (![0, 1, 2] : Fin 3 → Fin S8x1024x4096.rank)
  bcast_S_S8x1024x4096 : S_.BroadcastsInDim S8x1024x4096 (![] : Fin 0 → Fin S8x1024x4096.rank)
  dot_S8x1024x4096_S4096x4096_S8x1024x4096_2_1_01_0_n_n_wf : DotDims.WF S8x1024x4096 S4096x4096 S8x1024x4096 [2] [1] [0, 1] [0] [] []
  dot_S8x1024x4096_S4096x16_S8x1024x16_2_0_01_1_n_n_wf : DotDims.WF S8x1024x4096 S4096x16 S8x1024x16 [2] [0] [0, 1] [1] [] []
  dot_S8x1024x16_S16x4096_S8x1024x4096_2_0_01_1_n_n_wf : DotDims.WF S8x1024x16 S16x4096 S8x1024x4096 [2] [0] [0, 1] [1] [] []

variable [Facts₀]

def dot_S8x1024x4096_S4096x4096_S8x1024x4096_2_1_01_0_n_n : DotDims S8x1024x4096 S4096x4096 S8x1024x4096 where
  lhsContracting := [2]
  rhsContracting := [1]
  lhsNonContracting := [0, 1]
  rhsNonContracting := [0]
  lhsBatch := []
  rhsBatch := []
  wf := dot_S8x1024x4096_S4096x4096_S8x1024x4096_2_1_01_0_n_n_wf
def dot_S8x1024x4096_S4096x16_S8x1024x16_2_0_01_1_n_n : DotDims S8x1024x4096 S4096x16 S8x1024x16 where
  lhsContracting := [2]
  rhsContracting := [0]
  lhsNonContracting := [0, 1]
  rhsNonContracting := [1]
  lhsBatch := []
  rhsBatch := []
  wf := dot_S8x1024x4096_S4096x16_S8x1024x16_2_0_01_1_n_n_wf
def dot_S8x1024x16_S16x4096_S8x1024x4096_2_0_01_1_n_n : DotDims S8x1024x16 S16x4096 S8x1024x4096 where
  lhsContracting := [2]
  rhsContracting := [0]
  lhsNonContracting := [0, 1]
  rhsNonContracting := [1]
  lhsBatch := []
  rhsBatch := []
  wf := dot_S8x1024x16_S16x4096_S8x1024x4096_2_0_01_1_n_n_wf

class Facts : Prop extends Facts₀ where

variable [Facts]
-- ==== Proof.LibCoveringStore.lean ====
/-
  A load of a whole buffer, through the whole-shape rectangle at zero offsets, after a list of stores whose LAST one
  was itself a store of the whole buffer: it reads that last store's payload, whatever the earlier stores were. (The
  one-store case is the library's; a scratch accumulator that is overwritten whole several times and read back after
  each overwrite needs the list form.)
-/
import Idealize.ShloMosaic.Lib.Pipeline.Value

noncomputable section

namespace Idealize.ShloMosaic.View

variable {Val : EltTy → Type} {S : Shape} {e : EltTy}

/-- After stores `L` and then a store of payload `w` through the whole-shape rectangle, a load through that rectangle
    reads `w`. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.BodyValue.lean ====
/-
  What one grid point's body leaves in its output block, as ONE pure term of the six input blocks.

  The body zeroes two scratch accumulators, then for each of four slices of 1024 input features adds into the first
  the product of the token block's slice with the dequantised weight slice, and into the second the product of the
  same token slice with the first low-rank factor's slice; it then multiplies the second accumulator by the second
  low-rank factor, and stores accumulator + bias + 2 · that product. Every load of a scratch accumulator reads what
  the store just before it wrote (each store overwrites the whole accumulator), so the stores and loads telescope
  into a chain of eight steps over the slices.

  The printed body cuts its arithmetic into payloads at its loads and stores, and the four slices are cut slightly
  differently (where a no-op reshape or the dequantisation's first half lands); `mainStep` and `loraStep` are the
  one form all four share, and each payload is identified with it once.
-/
import proofs.«146389_j10505490006718_1_alg».proof.Proof.Gen.KernelIdeal.Frame
import proofs.«146389_j10505490006718_1_alg».proof.Proof.LibCoveringStore
import Idealize.ShloMosaic.Lib.Pipeline.Value
import Idealize.ShloMosaic.Lib.Tactic

set_option maxRecDepth 16384

noncomputable section

open Idealize.ShloMosaic Idealize.ShloMosaic.TcCoe Idealize.SL.Sem

namespace Cert.QLora.Body

open Cert.KernelIdeal Cert.KernelIdeal.Gen

variable {F : FTy → Type} [FloatOps F]

theorem hz : (![0, 0] : Fin 2 → Nat) = fun _ => 0 := funext fun a => by fin_cases a <;> rfl

/-! ## The steps, in one form -/

/-- A slice of the weight block, dequantised: codes minus eight, viewed as runs of 64, times the run's scale. -/
def deqW (Q : Vec F S512x1024 .i32) (S : Vec F S512x16 .f32) : FVec F S512x1024 .f32 :=
  shapeCast S512x1024
    (mulf (shapeCast S512x16x64 (subf (sitofp .f32 Q) (broadcast S512x1024 (Scalar.ofBits .f32 0x41000000#32))) Facts₀.shapeCasts_S512x1024_S512x16x64)
      (broadcastTo S512x16x64 (shapeCast S512x16x1 S Facts₀.shapeCasts_S512x16_S512x16x1) Facts₀.broadcasts_S512x16x1_S512x16x64))
    Facts₀.shapeCasts_S512x16x64_S512x1024

/-- One slice's contribution to the main accumulator: `acc + X · Wᵀ` over the slice's 1024 features. -/
def mainStep (X : Vec F S256x1024 .f32) (Q : Vec F S512x1024 .i32) (S : Vec F S512x16 .f32) (acc : Vec F S256x512 .f32) :
    FVec F S256x512 .f32 :=
  addf acc (matmul dot_S256x1024_S512x1024_S256x512_1_1_0_0_n_n none (truncf .bf16 X Facts₀.bitsLt_bf16_f32)
    (truncf .bf16 (deqW Q S) Facts₀.bitsLt_bf16_f32) (constant S256x512 .f32 0x00000000#32))

/-- One slice's contribution to the low-rank accumulator: `acc + X · A` over the slice's 1024 features. -/
def loraStep (X : Vec F S256x1024 .f32) (A : Vec F S1024x16 .f32) (acc : Vec F S256x16 .f32) : FVec F S256x16 .f32 :=
  addf acc (matmul dot_S256x1024_S1024x16_S256x16_1_0_0_1_n_n none (truncf .bf16 X Facts₀.bitsLt_bf16_f32)
    (truncf .bf16 A Facts₀.bitsLt_bf16_f32) (constant S256x16 .f32 0x00000000#32))

/-- The zero blocks the accumulators start from. -/
abbrev zeroMain : FVec F S256x512 .f32 := broadcast S256x512 (Scalar.ofBits .f32 0x00000000#32)
abbrev zeroLora : FVec F S256x16 .f32 := broadcast S256x16 (Scalar.ofBits .f32 0x00000000#32)

/-! ## Each printed payload is its step -/

theorem pay1_eq : (k0_pay1 : FVec F S256x512 .f32) = zeroMain := by
  unfold k0_pay1; simp only [shapeCast_self]
theorem pay2_eq : (k0_pay2 : FVec F S256x16 .f32) = zeroLora := by
  unfold k0_pay2; simp only [shapeCast_self]

theorem pay4_eq (X : Vec F S256x1024 .f32) (Q : Vec F S512x1024 .i32) (S : Vec F S512x16 .f32) (acc : Vec F S256x512 .f32) :
    k0_pay4 X Q S acc = mainStep X Q S acc := by
  unfold k0_pay4 k0_pay3 mainStep deqW; simp only [shapeCast_self]
theorem pay8_eq (X : Vec F S256x1024 .f32) (Q : Vec F S512x1024 .i32) (S : Vec F S512x16 .f32) (acc : Vec F S256x512 .f32) :
    k0_pay8 X Q S acc = mainStep X Q S acc := by
  unfold k0_pay8 k0_pay7 mainStep deqW; simp only [shapeCast_self]
theorem pay12_eq (X : Vec F S256x1024 .f32) (Q : Vec F S512x1024 .i32) (S : Vec F S512x16 .f32) (acc : Vec F S256x512 .f32) :
    k0_pay12 (k0_pay10 X) Q S acc = mainStep X Q S acc := by
  unfold k0_pay12 k0_pay11 k0_pay10 mainStep deqW; simp only [shapeCast_self]
theorem pay17_eq (X : Vec F S256x1024 .f32) (Q : Vec F S512x1024 .i32) (S : Vec F S512x16 .f32) (acc : Vec F S256x512 .f32) :
    k0_pay17 (k0_pay14 X) S (k0_pay15 Q) acc = mainStep X Q S acc := by
  unfold k0_pay17 k0_pay16 k0_pay15 k0_pay14 mainStep deqW; simp only [shapeCast_self]

theorem pay6_eq (X : Vec F S256x1024 .f32) (A : Vec F S1024x16 .f32) (acc : Vec F S256x16 .f32) :
    k0_pay6 acc (k0_pay5 X A) = loraStep X A acc := by
  unfold k0_pay6 k0_pay5 k0_pay3 loraStep; simp only [shapeCast_self]
theorem pay9_eq (X : Vec F S256x1024 .f32) (A : Vec F S1024x16 .f32) (acc : Vec F S256x16 .f32) :
    k0_pay9 X A acc = loraStep X A acc := by
  unfold k0_pay9 k0_pay7 loraStep; simp only [shapeCast_self]
theorem pay13_eq (X : Vec F S256x1024 .f32) (A : Vec F S1024x16 .f32) (acc : Vec F S256x16 .f32) :
    k0_pay13 (k0_pay10 X) A acc = loraStep X A acc := by
  unfold k0_pay13 k0_pay11 k0_pay10 loraStep; simp only [shapeCast_self]
theorem pay18_eq (X : Vec F S256x1024 .f32) (A : Vec F S1024x16 .f32) (acc : Vec F S256x16 .f32) :
    k0_pay18 (k0_pay14 X) A acc = loraStep X A acc := by
  unfold k0_pay18 k0_pay16 k0_pay14 loraStep; simp only [shapeCast_self]

/-! ## The slices the body loads -/

/-- Slice `c` of xsl. -/
def xsl (x0 : Vec F S256x4096 .f32) : Fin 4 → Vec F S256x1024 .f32
  | 0 => View.ld x0 (Rect.unit ![0, 0] S256x1024.size Facts₀.inb_S256x4096_S256x1024_0_0)
  | 1 => View.ld x0 (Rect.unit ![0, 1024] S256x1024.size Facts₀.inb_S256x4096_S256x1024_0_1024)
  | 2 => View.ld x0 (Rect.unit ![0, 2048] S256x1024.size Facts₀.inb_S256x4096_S256x1024_0_2048)
  | 3 => View.ld x0 (Rect.unit ![0, 3072] S256x1024.size Facts₀.inb_S256x4096_S256x1024_0_3072)

/-- Slice `c` of qsl. -/
def qsl (x1 : Vec F S512x4096 .i32) : Fin 4 → Vec F S512x1024 .i32
  | 0 => View.ld x1 (Rect.unit ![0, 0] S512x1024.size Facts₀.inb_S512x4096_S512x1024_0_0)
  | 1 => View.ld x1 (Rect.unit ![0, 1024] S512x1024.size Facts₀.inb_S512x4096_S512x1024_0_1024)
  | 2 => View.ld x1 (Rect.unit ![0, 2048] S512x1024.size Facts₀.inb_S512x4096_S512x1024_0_2048)
  | 3 => View.ld x1 (Rect.unit ![0, 3072] S512x1024.size Facts₀.inb_S512x4096_S512x1024_0_3072)

/-- Slice `c` of ssl. -/
def ssl (x2 : Vec F S512x64 .f32) : Fin 4 → Vec F S512x16 .f32
  | 0 => View.ld x2 (Rect.unit ![0, 0] S512x16.size Facts₀.inb_S512x64_S512x16_0_0)
  | 1 => View.ld x2 (Rect.unit ![0, 16] S512x16.size Facts₀.inb_S512x64_S512x16_0_16)
  | 2 => View.ld x2 (Rect.unit ![0, 32] S512x16.size Facts₀.inb_S512x64_S512x16_0_32)
  | 3 => View.ld x2 (Rect.unit ![0, 48] S512x16.size Facts₀.inb_S512x64_S512x16_0_48)

/-- Slice `c` of asl. -/
def asl (x4 : Vec F S4096x16 .f32) : Fin 4 → Vec F S1024x16 .f32
  | 0 => View.ld x4 (Rect.unit ![0, 0] S1024x16.size Facts₀.inb_S4096x16_S1024x16_0_0)
  | 1 => View.ld x4 (Rect.unit ![1024, 0] S1024x16.size Facts₀.inb_S4096x16_S1024x16_1024_0)
  | 2 => View.ld x4 (Rect.unit ![2048, 0] S1024x16.size Facts₀.inb_S4096x16_S1024x16_2048_0)
  | 3 => View.ld x4 (Rect.unit ![3072, 0] S1024x16.size Facts₀.inb_S4096x16_S1024x16_3072_0)

/-! ## The block -/

/-- The main accumulator after the four slices. -/
def accMain (x0 : Vec F S256x4096 .f32) (x1 : Vec F S512x4096 .i32) (x2 : Vec F S512x64 .f32) : FVec F S256x512 .f32 :=
  mainStep (xsl x0 3) (qsl x1 3) (ssl x2 3) (mainStep (xsl x0 2) (qsl x1 2) (ssl x2 2)
    (mainStep (xsl x0 1) (qsl x1 1) (ssl x2 1) (mainStep (xsl x0 0) (qsl x1 0) (ssl x2 0) zeroMain)))

/-- The low-rank accumulator after the four slices. -/
def accLora (x0 : Vec F S256x4096 .f32) (x4 : Vec F S4096x16 .f32) : FVec F S256x16 .f32 :=
  loraStep (xsl x0 3) (asl x4 3) (loraStep (xsl x0 2) (asl x4 2) (loraStep (xsl x0 1) (asl x4 1) (loraStep (xsl x0 0) (asl x4 0) zeroLora)))

/-- The stored block: the last payload (accumulator + bias + 2 · low-rank product) of the two accumulators. -/
def blockVal (x0 : Vec F S256x4096 .f32) (x1 : Vec F S512x4096 .i32) (x2 : Vec F S512x64 .f32) (x3 : Vec F S1x512 .f32)
    (x4 : Vec F S4096x16 .f32) (x5 : Vec F S16x512 .f32) : FVec F S256x512 .f32 :=
  k0_pay19 (accLora x0 x4) x5 (accMain x0 x1 x2) x3

/-- What the run found in the output's staging buffer IS that block: the one covering store's payload, each scratch
    load reading the payload of the store before it, each input load a slice of its block. -/
theorem out_eq_blockVal (c : Dev nD) (i : grid0.Coords) (arg2 : Memref sig .tc .vmem S256x4096 .f32) (harg2 : arg2.IsWhole) (arg3 : Memref sig .tc .vmem S512x4096 .i32) (harg3 : arg3.IsWhole) (arg4 : Memref sig .tc .vmem S512x64 .f32) (harg4 : arg4.IsWhole) (arg5 : Memref sig .tc .vmem S1x512 .f32) (harg5 : arg5.IsWhole) (arg6 : Memref sig .tc .vmem S4096x16 .f32) (harg6 : arg6.IsWhole) (arg7 : Memref sig .tc .vmem S16x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x16 .f32) (harg10 : arg10.IsWhole)
    (x0 : Vec F S256x4096 .f32) (x1 : Vec F S512x4096 .i32) (x2 : Vec F S512x64 .f32) (x3 : Vec F S1x512 .f32) (x4 : Vec F S4096x16 .f32) (x5 : Vec F S16x512 .f32) :
    out0_A_6 c i arg2 harg2 arg3 harg3 arg4 harg4 arg5 harg5 arg6 harg6 arg7 harg7 arg8 harg8 arg9 harg9 arg10 harg10 x0 x1 x2 x3 x4 x5 = blockVal x0 x1 x2 x3 x4 x5 := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 x5)]
  unfold kernelRun0_A
  dsimp only
  sl_unfold_words
  rw [View.canon_unit_zero hz]
  simp only [View.readCov_cons_unit_zero (S := S256x16) _ hz, View.readCov_cons_unit_zero (S := S256x512) _ hz,
    View.readAt_eq_ld, harg2.read_unread, harg3.read_unread, harg4.read_unread,
    harg5.read_unread, harg6.read_unread, harg7.read_unread, View.ld_unit_zero (S := S16x512) hz, View.ld_unit_zero (S := S1x512) hz]
  rw [pay4_eq, pay8_eq, pay12_eq, pay17_eq, pay6_eq, pay9_eq, pay13_eq, pay18_eq, pay1_eq, pay2_eq]
  rfl

end Cert.QLora.Body

end
-- ==== Proof.LibChunkSum.lean ====
/-
  A finite sum over `Fin (4 * n)`, in any commutative additive monoid, taken in four consecutive chunks of
  length `n` and accumulated left to right from zero: the order in which a reduction axis that is walked in four
  slices of equal length adds its partial sums. Nothing about the summand is used, so the statement holds on the
  extended reals with no finiteness side condition (only commutativity and associativity of `+` enter).
-/
import Mathlib.Algebra.BigOperators.Fin
import Mathlib.Logic.Equiv.Fin.Basic

namespace ChunkSum

open Finset

/-- Position `j` of chunk `c` among four chunks of length `n`: the index `j + n * c` of `Fin (4 * n)`. -/
abbrev at4 (n : ℕ) (c : Fin 4) (j : Fin n) : Fin (4 * n) := finProdFinEquiv (c, j)

/-- Its value. -/
theorem at4_val (n : ℕ) (c : Fin 4) (j : Fin n) : (at4 n c j).val = j.val + n * c.val := rfl

/-- The whole sum is the left-to-right accumulation, from zero, of the four chunk sums. -/
theorem sum_eq_four_chunks {M : Type*} [AddCommMonoid M] (n : ℕ) (f : Fin (4 * n) → M) :
    ∑ k, f k
      = (((0 + ∑ j : Fin n, f (at4 n 0 j)) + ∑ j : Fin n, f (at4 n 1 j)) + ∑ j : Fin n, f (at4 n 2 j))
          + ∑ j : Fin n, f (at4 n 3 j) := by
  rw [← Equiv.sum_comp finProdFinEquiv f, Fintype.sum_prod_type, Fin.sum_univ_four, zero_add]

end ChunkSum
-- ==== Proof.QLoraSpec.lean ====
/-
  The specification both programs meet at the ideal instance: one output element of a linear layer whose weight
  matrix is stored as integer codes with one scale per run of 64 consecutive input features, plus a bias, plus a
  rank-16 correction scaled by two.

  For one token (a row `x` of 4096 input features) and one output feature `o` (a row `q` of 4096 integer codes,
  a row `s` of 64 scales, a bias `b`, a column `B` of the second low-rank factor) and the first low-rank factor
  `A` (4096 × 16):

      out = (Σ_k x_k · ((q_k − 8) · s_{k / 64}) + b) + (Σ_r (Σ_k x_k · A_{k r}) · B_r) · 2.

  The kernel walks the 4096 input features in four slices of 1024, adding each slice's partial dot product into an
  accumulator that starts at zero; the reference contracts all 4096 at once. On the extended reals a finite sum may
  be regrouped freely (addition is commutative and associative, infinities included), so the two agree with no
  finiteness assumption: `rowOut_eq_chunks`.
-/
import Idealize.ShloMosaic.PureOps.Ideal
import Idealize.ShloMosaic.Lib.ValueIdx
import proofs.«146389_j10505490006718_1_alg».proof.Proof.LibChunkSum

noncomputable section

namespace Cert.QLora

open Idealize.ShloMosaic Idealize.ShloMosaic.ValueIdx ChunkSum

/-- The literal `8.0` the codes are centred by, and the literal `2.0` the low-rank term is scaled by, as the
    extended reals their patterns denote (the same words appear on both sides and are never evaluated). -/
abbrev eight : EReal := Ideal.ofBits .f32 0x41000000#32
abbrev two : EReal := Ideal.ofBits .f32 0x40000000#32

/-- A dequantised weight: the signed code minus eight, times the scale of its run of 64 features. -/
def deq (q : Fin 4096 → BitVec 32) (s : Fin 64 → EReal) (k : Fin 4096) : EReal :=
  (FloatOps.sitofp (F := Ideal) .f32 (q k) - eight) * s ⟨k.val / 64, by have := k.isLt; omega⟩

/-- One output element. -/
def rowOut (x : Fin 4096 → EReal) (q : Fin 4096 → BitVec 32) (s : Fin 64 → EReal) (b : EReal)
    (A : Fin 4096 → Fin 16 → EReal) (B : Fin 16 → EReal) : EReal :=
  ((∑ k, x k * deq q s k) + b) + (∑ r, (∑ k, x k * A k r) * B r) * two

/-- The partial dot product of `x` with `w` over slice `c` (features `1024 c … 1024 c + 1023`). -/
def sliceDot (x w : Fin 4096 → EReal) (c : Fin 4) : EReal :=
  ∑ j : Fin 1024, x (at4 1024 c j) * w (at4 1024 c j)

/-- A dot product over all 4096 features, accumulated slice by slice from zero. -/
def accDot (x w : Fin 4096 → EReal) : EReal :=
  (((0 + sliceDot x w 0) + sliceDot x w 1) + sliceDot x w 2) + sliceDot x w 3

/-- The slice-by-slice accumulation is the whole contraction. -/
theorem accDot_eq (x w : Fin 4096 → EReal) : accDot x w = ∑ k, x k * w k :=
  (sum_eq_four_chunks 1024 fun k => x k * w k).symm

/-- One output element with both 4096-long contractions accumulated slice by slice: what the kernel computes. -/
def rowOutChunks (x : Fin 4096 → EReal) (q : Fin 4096 → BitVec 32) (s : Fin 64 → EReal) (b : EReal)
    (A : Fin 4096 → Fin 16 → EReal) (B : Fin 16 → EReal) : EReal :=
  (accDot x (deq q s) + b) + (∑ r, accDot x (fun k => A k r) * B r) * two

theorem rowOut_eq_chunks (x : Fin 4096 → EReal) (q : Fin 4096 → BitVec 32) (s : Fin 64 → EReal) (b : EReal)
    (A : Fin 4096 → Fin 16 → EReal) (B : Fin 16 → EReal) :
    rowOutChunks x q s b A B = rowOut x q s b A B := by
  unfold rowOutChunks rowOut
  rw [accDot_eq]
  simp only [accDot_eq]

/-- The whole result, over the argument arrays: element `(b, t, o)` is `rowOut` of token `(b, t)`'s row of `x`, output
    feature `o`'s rows of codes and scales, its bias, the first low-rank factor, and column `o` of the second. -/
def result (x : (⟨3, ![8, 1024, 4096]⟩ : Shape).Idx → EReal) (q : (⟨2, ![4096, 4096]⟩ : Shape).Idx → BitVec 32)
    (s : (⟨2, ![4096, 64]⟩ : Shape).Idx → EReal) (b : (⟨1, ![4096]⟩ : Shape).Idx → EReal)
    (A : (⟨2, ![4096, 16]⟩ : Shape).Idx → EReal) (B : (⟨2, ![16, 4096]⟩ : Shape).Idx → EReal) :
    (⟨3, ![8, 1024, 4096]⟩ : Shape).Idx → EReal := fun i =>
  rowOut (fun k => x (ix3 (i 0) (i 1) k)) (fun k => q (ix2 (i 2) k)) (fun j => s (ix2 (i 2) j)) (b (ix1 (i 2)))
    (fun k r => A (ix2 k r)) (fun r => B (ix2 r (i 2)))

end Cert.QLora

end
-- ==== Proof.BlockAlgebra.lean ====
/-
  The stored block, read at one element at the ideal instance, is the specification's slice-by-slice form.

  At the ideal instance every operation of the body is exact: the bf16 truncations are the identity, each matrix
  product into a zero accumulator is the plain sum of products over its one contracted axis, the dequantisation's two
  reshapes cancel around an elementwise product (element `(o, k)` of a 512 × 1024 slice is element
  `(o, k / 64, k % 64)` of its view as runs of 64, whose scale is entry `(o, k / 64)`), and the bias row is broadcast
  down the 256 token rows. So element `(p, q)` of the block is `rowOutChunks` of row `p` of the token block, rows `q`
  of the code and scale blocks, entry `q` of the bias block, the first low-rank factor, and column `q` of the second.
-/
import proofs.«146389_j10505490006718_1_alg».proof.Proof.BodyValue
import proofs.«146389_j10505490006718_1_alg».proof.Proof.QLoraSpec
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.QLora.Body

open Cert.KernelIdeal Cert.KernelIdeal.Gen Cert.QLora ChunkSum

/-! ## A matrix product with one contracted axis, into zero, at an element -/

/-- At the ideal instance a matrix product into the zero splat, contracting ONE axis of extent `n`, read at an
    output index, is the sum over that axis's coordinate of the operands' products at the operand indices `L k`,
    `R k` the dimension numbers name. -/
theorem matmul_zero_single {sl sr so : Shape} {φ₁ φ₂ : FTy} (D : DotDims sl sr so) (n : Nat) (hr : D.contr.rank = 1)
    (hs : D.contr.size ⟨0, by omega⟩ = n) (lhs : FVec Ideal sl φ₁) (rhs : FVec Ideal sr φ₂) (j : so.Idx)
    (L : Fin n → sl.Idx) (R : Fin n → sr.Idx)
    (hL : ∀ k, D.lhsIdx j ((contrEquiv1 D n hr hs).symm k) = L k)
    (hR : ∀ k, D.rhsIdx j ((contrEquiv1 D n hr hs).symm k) = R k) :
    FloatOps.matmul D none lhs rhs (constant so .f32 0x00000000#32) j = ∑ k : Fin n, lhs (L k) * rhs (R k) := by
  rw [Ideal.matmul_constant_zero_apply, ← Equiv.sum_comp (contrEquiv1 D n hr hs).symm]
  exact Finset.sum_congr rfl fun k _ => by rw [hL k, hR k]

/-! ## The three products' operand indices, coordinate by coordinate -/

theorem mainDot_lhs_free (i : S256x512.Idx) (q : dot_S256x1024_S512x1024_S256x512_1_1_0_0_n_n.contr.Idx) : (dot_S256x1024_S512x1024_S256x512_1_1_0_0_n_n.lhsIdx i q 0).val = (i 0).val := by
  unfold DotDims.lhsIdx
  rw [dif_neg (show ¬(0 : Fin S256x1024.rank) ∈ dot_S256x1024_S512x1024_S256x512_1_1_0_0_n_n.lhsBatch by decide), dif_pos (show (0 : Fin S256x1024.rank) ∈ dot_S256x1024_S512x1024_S256x512_1_1_0_0_n_n.lhsNonContracting by decide)]
  rfl
theorem mainDot_lhs_contr (i : S256x512.Idx) (q : dot_S256x1024_S512x1024_S256x512_1_1_0_0_n_n.contr.Idx) : (dot_S256x1024_S512x1024_S256x512_1_1_0_0_n_n.lhsIdx i q 1).val = (q ⟨0, by decide⟩).val :=
  dot_S256x1024_S512x1024_S256x512_1_1_0_0_n_n.lhsIdx_val_of_single rfl i q
theorem mainDot_rhs_free (i : S256x512.Idx) (q : dot_S256x1024_S512x1024_S256x512_1_1_0_0_n_n.contr.Idx) : (dot_S256x1024_S512x1024_S256x512_1_1_0_0_n_n.rhsIdx i q 0).val = (i 1).val := by
  unfold DotDims.rhsIdx
  rw [dif_neg (show ¬(0 : Fin S512x1024.rank) ∈ dot_S256x1024_S512x1024_S256x512_1_1_0_0_n_n.rhsBatch by decide), dif_pos (show (0 : Fin S512x1024.rank) ∈ dot_S256x1024_S512x1024_S256x512_1_1_0_0_n_n.rhsNonContracting by decide)]
  rfl
theorem mainDot_rhs_contr (i : S256x512.Idx) (q : dot_S256x1024_S512x1024_S256x512_1_1_0_0_n_n.contr.Idx) : (dot_S256x1024_S512x1024_S256x512_1_1_0_0_n_n.rhsIdx i q 1).val = (q ⟨0, by decide⟩).val :=
  dot_S256x1024_S512x1024_S256x512_1_1_0_0_n_n.rhsIdx_val_of_single rfl i q

theorem loraDot_lhs_free (i : S256x16.Idx) (q : dot_S256x1024_S1024x16_S256x16_1_0_0_1_n_n.contr.Idx) : (dot_S256x1024_S1024x16_S256x16_1_0_0_1_n_n.lhsIdx i q 0).val = (i 0).val := by
  unfold DotDims.lhsIdx
  rw [dif_neg (show ¬(0 : Fin S256x1024.rank) ∈ dot_S256x1024_S1024x16_S256x16_1_0_0_1_n_n.lhsBatch by decide), dif_pos (show (0 : Fin S256x1024.rank) ∈ dot_S256x1024_S1024x16_S256x16_1_0_0_1_n_n.lhsNonContracting by decide)]
  rfl
theorem loraDot_lhs_contr (i : S256x16.Idx) (q : dot_S256x1024_S1024x16_S256x16_1_0_0_1_n_n.contr.Idx) : (dot_S256x1024_S1024x16_S256x16_1_0_0_1_n_n.lhsIdx i q 1).val = (q ⟨0, by decide⟩).val :=
  dot_S256x1024_S1024x16_S256x16_1_0_0_1_n_n.lhsIdx_val_of_single rfl i q
theorem loraDot_rhs_free (i : S256x16.Idx) (q : dot_S256x1024_S1024x16_S256x16_1_0_0_1_n_n.contr.Idx) : (dot_S256x1024_S1024x16_S256x16_1_0_0_1_n_n.rhsIdx i q 1).val = (i 1).val := by
  unfold DotDims.rhsIdx
  rw [dif_neg (show ¬(1 : Fin S1024x16.rank) ∈ dot_S256x1024_S1024x16_S256x16_1_0_0_1_n_n.rhsBatch by decide), dif_pos (show (1 : Fin S1024x16.rank) ∈ dot_S256x1024_S1024x16_S256x16_1_0_0_1_n_n.rhsNonContracting by decide)]
  rfl
theorem loraDot_rhs_contr (i : S256x16.Idx) (q : dot_S256x1024_S1024x16_S256x16_1_0_0_1_n_n.contr.Idx) : (dot_S256x1024_S1024x16_S256x16_1_0_0_1_n_n.rhsIdx i q 0).val = (q ⟨0, by decide⟩).val :=
  dot_S256x1024_S1024x16_S256x16_1_0_0_1_n_n.rhsIdx_val_of_single rfl i q

theorem outDot_lhs_free (i : S256x512.Idx) (q : dot_S256x16_S16x512_S256x512_1_0_0_1_n_n.contr.Idx) : (dot_S256x16_S16x512_S256x512_1_0_0_1_n_n.lhsIdx i q 0).val = (i 0).val := by
  unfold DotDims.lhsIdx
  rw [dif_neg (show ¬(0 : Fin S256x16.rank) ∈ dot_S256x16_S16x512_S256x512_1_0_0_1_n_n.lhsBatch by decide), dif_pos (show (0 : Fin S256x16.rank) ∈ dot_S256x16_S16x512_S256x512_1_0_0_1_n_n.lhsNonContracting by decide)]
  rfl
theorem outDot_lhs_contr (i : S256x512.Idx) (q : dot_S256x16_S16x512_S256x512_1_0_0_1_n_n.contr.Idx) : (dot_S256x16_S16x512_S256x512_1_0_0_1_n_n.lhsIdx i q 1).val = (q ⟨0, by decide⟩).val :=
  dot_S256x16_S16x512_S256x512_1_0_0_1_n_n.lhsIdx_val_of_single rfl i q
theorem outDot_rhs_free (i : S256x512.Idx) (q : dot_S256x16_S16x512_S256x512_1_0_0_1_n_n.contr.Idx) : (dot_S256x16_S16x512_S256x512_1_0_0_1_n_n.rhsIdx i q 1).val = (i 1).val := by
  unfold DotDims.rhsIdx
  rw [dif_neg (show ¬(1 : Fin S16x512.rank) ∈ dot_S256x16_S16x512_S256x512_1_0_0_1_n_n.rhsBatch by decide), dif_pos (show (1 : Fin S16x512.rank) ∈ dot_S256x16_S16x512_S256x512_1_0_0_1_n_n.rhsNonContracting by decide)]
  rfl
theorem outDot_rhs_contr (i : S256x512.Idx) (q : dot_S256x16_S16x512_S256x512_1_0_0_1_n_n.contr.Idx) : (dot_S256x16_S16x512_S256x512_1_0_0_1_n_n.rhsIdx i q 0).val = (q ⟨0, by decide⟩).val :=
  dot_S256x16_S16x512_S256x512_1_0_0_1_n_n.rhsIdx_val_of_single rfl i q

/-! ## The dequantised slice at an element -/

theorem deqW_apply (Q : Vec Ideal S512x1024 .i32) (S : Vec Ideal S512x16 .f32) (q : Fin 512) (k : Fin 1024) :
    deqW (F := Ideal) Q S (ix2 q k)
      = (FloatOps.sitofp (F := Ideal) .f32 (Q (ix2 q k)) - eight) * S (ix2 q ⟨k.val / 64, by have := k.isLt; omega⟩) := by
  have hq : q.val < 512 := q.isLt
  have hk : k.val < 1024 := k.isLt
  unfold deqW
  rw [shapeCast_apply _ Facts₀.shapeCasts_S512x16x64_S512x1024 (ix2 q k)
    (ix3 q (⟨k.val / 64, by omega⟩ : Fin 16) (⟨k.val % 64, by omega⟩ : Fin 64))
    (by rw [Shape.rowMajor_val_three, Shape.rowMajor_val_two]
        show (q.val * 16 + k.val / 64) * 64 + k.val % 64 = q.val * 1024 + k.val
        omega)]
  rw [mulf_apply]
  rw [shapeCast_apply _ Facts₀.shapeCasts_S512x1024_S512x16x64
    (ix3 q (⟨k.val / 64, by omega⟩ : Fin 16) (⟨k.val % 64, by omega⟩ : Fin 64)) (ix2 q k)
    (by rw [Shape.rowMajor_val_three, Shape.rowMajor_val_two]
        show q.val * 1024 + k.val = (q.val * 16 + k.val / 64) * 64 + k.val % 64
        omega)]
  rw [broadcastTo_apply _ Facts₀.broadcasts_S512x16x1_S512x16x64
    (ix3 q (⟨k.val / 64, by omega⟩ : Fin 16) (⟨k.val % 64, by omega⟩ : Fin 64))
    (ix3 q (⟨k.val / 64, by omega⟩ : Fin 16) (0 : Fin 1))
    (fun a => match a with
      | ⟨0, _⟩ => by show q.val = if (512 : Nat) = 1 then 0 else q.val; rw [if_neg (by decide)]
      | ⟨1, _⟩ => by show k.val / 64 = if (16 : Nat) = 1 then 0 else k.val / 64; rw [if_neg (by decide)]
      | ⟨2, _⟩ => by show 0 = if (1 : Nat) = 1 then 0 else k.val % 64; rw [if_pos rfl])]
  rw [shapeCast_apply _ Facts₀.shapeCasts_S512x16_S512x16x1 (ix3 q (⟨k.val / 64, by omega⟩ : Fin 16) (0 : Fin 1))
    (ix2 q (⟨k.val / 64, by omega⟩ : Fin 16))
    (by rw [Shape.rowMajor_val_three, Shape.rowMajor_val_two]
        show q.val * 16 + k.val / 64 = (q.val * 16 + k.val / 64) * 1 + 0
        omega)]
  rfl

/-! ## The two accumulation steps at an element -/

theorem mainStep_apply (X : Vec Ideal S256x1024 .f32) (Q : Vec Ideal S512x1024 .i32) (S : Vec Ideal S512x16 .f32)
    (acc : Vec Ideal S256x512 .f32) (p : Fin 256) (q : Fin 512) :
    mainStep (F := Ideal) X Q S acc (ix2 p q)
      = acc (ix2 p q) + ∑ k : Fin 1024, X (ix2 p k) * deqW (F := Ideal) Q S (ix2 q k) := by
  unfold mainStep
  rw [addf_apply]
  refine congrArg (acc (ix2 p q) + ·) ?_
  refine (matmul_zero_single dot_S256x1024_S512x1024_S256x512_1_1_0_0_n_n 1024 rfl rfl _ _ (ix2 p q)
    (fun k => ix2 p k) (fun k => ix2 q k) (fun k => ?_) (fun k => ?_)).trans ?_
  · have hk := contrEquiv1_symm_val dot_S256x1024_S512x1024_S256x512_1_1_0_0_n_n 1024 rfl rfl k
    funext a
    apply Fin.ext
    match a with
    | ⟨0, _⟩ => exact mainDot_lhs_free _ _
    | ⟨1, _⟩ => exact (mainDot_lhs_contr _ _).trans hk
  · have hk := contrEquiv1_symm_val dot_S256x1024_S512x1024_S256x512_1_1_0_0_n_n 1024 rfl rfl k
    funext a
    apply Fin.ext
    match a with
    | ⟨0, _⟩ => exact mainDot_rhs_free _ _
    | ⟨1, _⟩ => exact (mainDot_rhs_contr _ _).trans hk
  · rfl

theorem loraStep_apply (X : Vec Ideal S256x1024 .f32) (A : Vec Ideal S1024x16 .f32) (acc : Vec Ideal S256x16 .f32)
    (p : Fin 256) (r : Fin 16) :
    loraStep (F := Ideal) X A acc (ix2 p r) = acc (ix2 p r) + ∑ k : Fin 1024, X (ix2 p k) * A (ix2 k r) := by
  unfold loraStep
  rw [addf_apply]
  refine congrArg (acc (ix2 p r) + ·) ?_
  refine (matmul_zero_single dot_S256x1024_S1024x16_S256x16_1_0_0_1_n_n 1024 rfl rfl _ _ (ix2 p r)
    (fun k => ix2 p k) (fun k => ix2 k r) (fun k => ?_) (fun k => ?_)).trans ?_
  · have hk := contrEquiv1_symm_val dot_S256x1024_S1024x16_S256x16_1_0_0_1_n_n 1024 rfl rfl k
    funext a
    apply Fin.ext
    match a with
    | ⟨0, _⟩ => exact loraDot_lhs_free _ _
    | ⟨1, _⟩ => exact (loraDot_lhs_contr _ _).trans hk
  · have hk := contrEquiv1_symm_val dot_S256x1024_S1024x16_S256x16_1_0_0_1_n_n 1024 rfl rfl k
    funext a
    apply Fin.ext
    match a with
    | ⟨1, _⟩ => exact loraDot_rhs_free _ _
    | ⟨0, _⟩ => exact (loraDot_rhs_contr _ _).trans hk
  · rfl

/-! ## The last payload at an element -/

theorem final_apply (xa : Vec Ideal S256x16 .f32) (B : Vec Ideal S16x512 .f32) (acc : Vec Ideal S256x512 .f32)
    (b : Vec Ideal S1x512 .f32) (p : Fin 256) (q : Fin 512) :
    k0_pay19 (F := Ideal) xa B acc b (ix2 p q)
      = (acc (ix2 p q) + b (ix2 (0 : Fin 1) q)) + (∑ r : Fin 16, xa (ix2 p r) * B (ix2 r q)) * two := by
  unfold k0_pay19
  simp only [shapeCast_self]
  rw [addf_apply, addf_apply, mulf_apply]
  rw [broadcastTo_apply _ Facts₀.broadcasts_S1x512_S256x512 (ix2 p q) (ix2 (0 : Fin 1) q)
    (fun a => match a with
      | ⟨0, _⟩ => by show 0 = if (1 : Nat) = 1 then 0 else p.val; rw [if_pos rfl]
      | ⟨1, _⟩ => by show q.val = if (512 : Nat) = 1 then 0 else q.val; rw [if_neg (by decide)])]
  refine congrArg (fun z => (acc (ix2 p q) + b (ix2 (0 : Fin 1) q)) + z * two) ?_
  refine (matmul_zero_single dot_S256x16_S16x512_S256x512_1_0_0_1_n_n 16 rfl rfl _ _ (ix2 p q)
    (fun r => ix2 p r) (fun r => ix2 r q) (fun k => ?_) (fun k => ?_)).trans ?_
  · have hk := contrEquiv1_symm_val dot_S256x16_S16x512_S256x512_1_0_0_1_n_n 16 rfl rfl k
    funext a
    apply Fin.ext
    match a with
    | ⟨0, _⟩ => exact outDot_lhs_free _ _
    | ⟨1, _⟩ => exact (outDot_lhs_contr _ _).trans hk
  · have hk := contrEquiv1_symm_val dot_S256x16_S16x512_S256x512_1_0_0_1_n_n 16 rfl rfl k
    funext a
    apply Fin.ext
    match a with
    | ⟨1, _⟩ => exact outDot_rhs_free _ _
    | ⟨0, _⟩ => exact (outDot_rhs_contr _ _).trans hk
  · rfl

/-! ## The slices at an element

Slice `c` of a block is the block read `1024 c` columns (or rows; `16 c` columns for the scales) further on. -/

section Slices
variable {F : FTy → Type} [FloatOps F]

theorem xsl_apply (x0 : Vec F S256x4096 .f32) (c : Fin 4) (p : Fin 256) (k : Fin 1024) :
    xsl x0 c (ix2 p k) = x0 (ix2 p (at4 1024 c k)) := by
  match c with
  | 0 => exact congrArg x0 (funext fun a => Fin.ext (by
      match a with
      | ⟨0, _⟩ => show 0 + 1 * p.val = p.val; omega
      | ⟨1, _⟩ => show 0 + 1 * k.val = k.val + 1024 * 0; omega))
  | 1 => exact congrArg x0 (funext fun a => Fin.ext (by
      match a with
      | ⟨0, _⟩ => show 0 + 1 * p.val = p.val; omega
      | ⟨1, _⟩ => show 1024 + 1 * k.val = k.val + 1024 * 1; omega))
  | 2 => exact congrArg x0 (funext fun a => Fin.ext (by
      match a with
      | ⟨0, _⟩ => show 0 + 1 * p.val = p.val; omega
      | ⟨1, _⟩ => show 2048 + 1 * k.val = k.val + 1024 * 2; omega))
  | 3 => exact congrArg x0 (funext fun a => Fin.ext (by
      match a with
      | ⟨0, _⟩ => show 0 + 1 * p.val = p.val; omega
      | ⟨1, _⟩ => show 3072 + 1 * k.val = k.val + 1024 * 3; omega))

theorem qsl_apply (x1 : Vec F S512x4096 .i32) (c : Fin 4) (q : Fin 512) (k : Fin 1024) :
    qsl x1 c (ix2 q k) = x1 (ix2 q (at4 1024 c k)) := by
  match c with
  | 0 => exact congrArg x1 (funext fun a => Fin.ext (by
      match a with
      | ⟨0, _⟩ => show 0 + 1 * q.val = q.val; omega
      | ⟨1, _⟩ => show 0 + 1 * k.val = k.val + 1024 * 0; omega))
  | 1 => exact congrArg x1 (funext fun a => Fin.ext (by
      match a with
      | ⟨0, _⟩ => show 0 + 1 * q.val = q.val; omega
      | ⟨1, _⟩ => show 1024 + 1 * k.val = k.val + 1024 * 1; omega))
  | 2 => exact congrArg x1 (funext fun a => Fin.ext (by
      match a with
      | ⟨0, _⟩ => show 0 + 1 * q.val = q.val; omega
      | ⟨1, _⟩ => show 2048 + 1 * k.val = k.val + 1024 * 2; omega))
  | 3 => exact congrArg x1 (funext fun a => Fin.ext (by
      match a with
      | ⟨0, _⟩ => show 0 + 1 * q.val = q.val; omega
      | ⟨1, _⟩ => show 3072 + 1 * k.val = k.val + 1024 * 3; omega))

theorem asl_apply (x4 : Vec F S4096x16 .f32) (c : Fin 4) (k : Fin 1024) (r : Fin 16) :
    asl x4 c (ix2 k r) = x4 (ix2 (at4 1024 c k) r) := by
  match c with
  | 0 => exact congrArg x4 (funext fun a => Fin.ext (by
      match a with
      | ⟨0, _⟩ => show 0 + 1 * k.val = k.val + 1024 * 0; omega
      | ⟨1, _⟩ => show 0 + 1 * r.val = r.val; omega))
  | 1 => exact congrArg x4 (funext fun a => Fin.ext (by
      match a with
      | ⟨0, _⟩ => show 1024 + 1 * k.val = k.val + 1024 * 1; omega
      | ⟨1, _⟩ => show 0 + 1 * r.val = r.val; omega))
  | 2 => exact congrArg x4 (funext fun a => Fin.ext (by
      match a with
      | ⟨0, _⟩ => show 2048 + 1 * k.val = k.val + 1024 * 2; omega
      | ⟨1, _⟩ => show 0 + 1 * r.val = r.val; omega))
  | 3 => exact congrArg x4 (funext fun a => Fin.ext (by
      match a with
      | ⟨0, _⟩ => show 3072 + 1 * k.val = k.val + 1024 * 3; omega
      | ⟨1, _⟩ => show 0 + 1 * r.val = r.val; omega))

theorem ssl_apply (x2 : Vec F S512x64 .f32) (c : Fin 4) (q : Fin 512) (j : Fin 16) :
    ssl x2 c (ix2 q j) = x2 (ix2 q (⟨16 * c.val + j.val, by have := c.isLt; have := j.isLt; omega⟩ : Fin 64)) := by
  match c with
  | 0 => exact congrArg x2 (funext fun a => Fin.ext (by
      match a with
      | ⟨0, _⟩ => show 0 + 1 * q.val = q.val; omega
      | ⟨1, _⟩ => show 0 + 1 * j.val = 16 * 0 + j.val; omega))
  | 1 => exact congrArg x2 (funext fun a => Fin.ext (by
      match a with
      | ⟨0, _⟩ => show 0 + 1 * q.val = q.val; omega
      | ⟨1, _⟩ => show 16 + 1 * j.val = 16 * 1 + j.val; omega))
  | 2 => exact congrArg x2 (funext fun a => Fin.ext (by
      match a with
      | ⟨0, _⟩ => show 0 + 1 * q.val = q.val; omega
      | ⟨1, _⟩ => show 32 + 1 * j.val = 16 * 2 + j.val; omega))
  | 3 => exact congrArg x2 (funext fun a => Fin.ext (by
      match a with
      | ⟨0, _⟩ => show 0 + 1 * q.val = q.val; omega
      | ⟨1, _⟩ => show 48 + 1 * j.val = 16 * 3 + j.val; omega))

end Slices

/-! ## One element of the block -/

theorem zeroMain_apply (i : S256x512.Idx) : zeroMain (F := Ideal) i = 0 := Ideal.ofBits_zero_f32
theorem zeroLora_apply (i : S256x16.Idx) : zeroLora (F := Ideal) i = 0 := Ideal.ofBits_zero_f32

/-- The dequantised slice `c` at `(q, k)` is the specification's dequantised weight at feature `1024 c + k`. -/
theorem deqSlice_apply (x1 : Vec Ideal S512x4096 .i32) (x2 : Vec Ideal S512x64 .f32) (c : Fin 4) (q : Fin 512) (k : Fin 1024) :
    deqW (F := Ideal) (qsl x1 c) (ssl x2 c) (ix2 q k)
      = deq (fun k => x1 (ix2 q k)) (fun j => x2 (ix2 q j)) (at4 1024 c k) := by
  rw [deqW_apply, qsl_apply, ssl_apply]
  unfold deq
  refine congrArg (fun z : Fin 64 => (FloatOps.sitofp (F := Ideal) .f32 (x1 (ix2 q (at4 1024 c k))) - eight) * x2 (ix2 q z)) (Fin.ext ?_)
  have hc := c.isLt
  have hk := k.isLt
  show 16 * c.val + k.val / 64 = (k.val + 1024 * c.val) / 64
  omega

/-- Element `(p, q)` of the stored block. -/
theorem blockVal_apply (x0 : Vec Ideal S256x4096 .f32) (x1 : Vec Ideal S512x4096 .i32) (x2 : Vec Ideal S512x64 .f32)
    (x3 : Vec Ideal S1x512 .f32) (x4 : Vec Ideal S4096x16 .f32) (x5 : Vec Ideal S16x512 .f32) (p : Fin 256) (q : Fin 512) :
    blockVal (F := Ideal) x0 x1 x2 x3 x4 x5 (ix2 p q)
      = rowOutChunks (fun k => x0 (ix2 p k)) (fun k => x1 (ix2 q k)) (fun j => x2 (ix2 q j)) (x3 (ix2 (0 : Fin 1) q))
          (fun k r => x4 (ix2 k r)) (fun r => x5 (ix2 r q)) := by
  unfold blockVal
  rw [final_apply]
  unfold accMain accLora rowOutChunks accDot sliceDot
  simp only [mainStep_apply, loraStep_apply, deqSlice_apply, xsl_apply, asl_apply, zeroMain_apply, zeroLora_apply]

end Cert.QLora.Body

end
-- ==== Proof.KernelValue.lean ====
/-
  From one grid point's block to the whole result array, and the run.

  The grid is 32 × 8: point `t` handles token rows `256 · a … 256 · a + 255` and output features
  `512 · b … 512 · b + 511`, where `(a, b)` is the output window's block index at `t`. The token window moves with
  `a` only, the code, scale, bias and second-factor windows with `b` only, and the first low-rank factor is one
  block. So element `(p, q)` of what point `t` writes back is the specification's `rowOut` of row `256 a + p` of the
  flattened token array and column `512 b + q` of the weights: the block is the restriction of ONE whole-array
  function, the blocks tile the 8192 × 4096 array, and the array after the region is that function.

  Around the region the program only reshapes: the token array `[8, 1024, 4096] → [8192, 4096]`, the bias
  `[4096] → [1, 4096]`, and the result back `[8192, 4096] → [8, 1024, 4096]`. Row-major positions are kept, so token
  `(b, s)` is row `1024 b + s`, and the final array is the specification `result` of the argument arrays.
-/
import proofs.«146389_j10505490006718_1_alg».proof.Proof.BlockAlgebra
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.QLora.Kernel

open Cert.KernelIdeal Cert.KernelIdeal.Gen Cert.QLora Cert.QLora.Body

variable (m : (ℓ : Loc nD τ sig) → Buf (Elt Ideal) ℓ) (ρ : Dev nD → PrngReg)

/-! ## The region's array as one function of the arrays it finds -/

/-- Element `(r, o)` of the region's 8192 × 4096 result: `rowOut` of row `r` of the flattened tokens and the rows /
    column `o` of the weight arrays. -/
def regionOf (a0 : S8192x4096.Idx → EReal) (a1 : S4096x4096.Idx → BitVec 32) (a2 : S4096x64.Idx → EReal)
    (a3 : S1x4096.Idx → EReal) (a4 : S4096x16.Idx → EReal) (a5 : S16x4096.Idx → EReal) : S8192x4096.Idx → EReal := fun i =>
  rowOut (fun k => a0 (ix2 (i 0) k)) (fun k => a1 (ix2 (i 1) k)) (fun j => a2 (ix2 (i 1) j)) (a3 (ix2 (0 : Fin 1) (i 1)))
    (fun k r => a4 (ix2 k r)) (fun r => a5 (ix2 r (i 1)))

/-! ## The printed index maps, decided once over the 256 points -/

theorem idx_facts : ∀ t : Fin cfg0.N,
    win0_0.index t (0 : Fin 2) = win0_6.index t (0 : Fin 2) ∧ win0_0.index t (1 : Fin 2) = 0
    ∧ win0_1.index t (0 : Fin 2) = win0_6.index t (1 : Fin 2) ∧ win0_1.index t (1 : Fin 2) = 0
    ∧ win0_2.index t (0 : Fin 2) = win0_6.index t (1 : Fin 2) ∧ win0_2.index t (1 : Fin 2) = 0
    ∧ win0_3.index t (0 : Fin 2) = 0 ∧ win0_3.index t (1 : Fin 2) = win0_6.index t (1 : Fin 2)
    ∧ win0_4.index t (0 : Fin 2) = 0 ∧ win0_4.index t (1 : Fin 2) = 0
    ∧ win0_5.index t (0 : Fin 2) = 0 ∧ win0_5.index t (1 : Fin 2) = win0_6.index t (1 : Fin 2)
    ∧ win0_6.index t (0 : Fin 2) < 32 ∧ win0_6.index t (1 : Fin 2) < 8 :=
  (by decide +kernel : ∀ t : Fin grid0.N, _)

/-- Every block of the output array is some point's. -/
theorem idx_onto : ∀ (a : Fin 32) (b : Fin 8), ∃ t : Fin cfg0.N, win0_6.index t = ![a.val, b.val] :=
  (by decide +kernel : ∀ (a : Fin 32) (b : Fin 8), ∃ t : Fin grid0.N, win0_6.index t = ![a.val, b.val])

/-- The token row and the output feature that element `(p, q)` of point `t`'s block stands for. -/
def orow (t : Fin cfg0.N) (p : Fin 256) : Fin 8192 :=
  ⟨win0_6.index t (0 : Fin 2) * 256 + p.val, by have := (idx_facts t).2.2.2.2.2.2.2.2.2.2.2.2.1; have := p.isLt; omega⟩
def ocol (t : Fin cfg0.N) (q : Fin 512) : Fin 4096 :=
  ⟨win0_6.index t (1 : Fin 2) * 512 + q.val, by have := (idx_facts t).2.2.2.2.2.2.2.2.2.2.2.2.2; have := q.isLt; omega⟩

/-! ## Each window's block, read where the output's block says -/

section Blocks
variable (c : Dev nD) (t : Fin cfg0.N)

theorem emb_out (p : Fin 256) (q : Fin 512) :
    ((cfg0.win 6).blk t).view.emb (ix2 p q) = ix2 (orow t p) (ocol t q) := by
  funext a; apply Fin.ext
  match a with
  | ⟨0, _⟩ => show win0_6.index t (0 : Fin 2) * 256 + 1 * p.val = win0_6.index t (0 : Fin 2) * 256 + p.val; omega
  | ⟨1, _⟩ => show win0_6.index t (1 : Fin 2) * 512 + 1 * q.val = win0_6.index t (1 : Fin 2) * 512 + q.val; omega

theorem blk_x (p : Fin 256) (k : Fin 4096) :
    (iblk m c 0 t : Vec Ideal S256x4096 .f32) (ix2 p k) = V m c main_v0 (ix2 (orow t p) k) := by
  obtain ⟨e0, e1, -⟩ := idx_facts t
  show V m c main_v0 (((cfg0.win 0).blk t).view.emb (ix2 p k)) = V m c main_v0 (ix2 (orow t p) k)
  have h : ((cfg0.win 0).blk t).view.emb (ix2 p k) = ix2 (orow t p) k := by
    funext a; apply Fin.ext
    match a with
    | ⟨0, _⟩ => show win0_0.index t (0 : Fin 2) * 256 + 1 * p.val = win0_6.index t (0 : Fin 2) * 256 + p.val; omega
    | ⟨1, _⟩ => show win0_0.index t (1 : Fin 2) * 4096 + 1 * k.val = k.val; omega
  rw [h]

theorem blk_q (q : Fin 512) (k : Fin 4096) :
    (iblk m c 1 t : Vec Ideal S512x4096 .i32) (ix2 q k) = V m c main_arg1 (ix2 (ocol t q) k) := by
  obtain ⟨-, -, e0, e1, -⟩ := idx_facts t
  show V m c main_arg1 (((cfg0.win 1).blk t).view.emb (ix2 q k)) = V m c main_arg1 (ix2 (ocol t q) k)
  have h : ((cfg0.win 1).blk t).view.emb (ix2 q k) = ix2 (ocol t q) k := by
    funext a; apply Fin.ext
    match a with
    | ⟨0, _⟩ => show win0_1.index t (0 : Fin 2) * 512 + 1 * q.val = win0_6.index t (1 : Fin 2) * 512 + q.val; omega
    | ⟨1, _⟩ => show win0_1.index t (1 : Fin 2) * 4096 + 1 * k.val = k.val; omega
  rw [h]

theorem blk_s (q : Fin 512) (j : Fin 64) :
    (iblk m c 2 t : Vec Ideal S512x64 .f32) (ix2 q j) = V m c main_arg2 (ix2 (ocol t q) j) := by
  obtain ⟨-, -, -, -, e0, e1, -⟩ := idx_facts t
  show V m c main_arg2 (((cfg0.win 2).blk t).view.emb (ix2 q j)) = V m c main_arg2 (ix2 (ocol t q) j)
  have h : ((cfg0.win 2).blk t).view.emb (ix2 q j) = ix2 (ocol t q) j := by
    funext a; apply Fin.ext
    match a with
    | ⟨0, _⟩ => show win0_2.index t (0 : Fin 2) * 512 + 1 * q.val = win0_6.index t (1 : Fin 2) * 512 + q.val; omega
    | ⟨1, _⟩ => show win0_2.index t (1 : Fin 2) * 64 + 1 * j.val = j.val; omega
  rw [h]

theorem blk_b (q : Fin 512) :
    (iblk m c 3 t : Vec Ideal S1x512 .f32) (ix2 (0 : Fin 1) q) = V m c main_v1 (ix2 (0 : Fin 1) (ocol t q)) := by
  obtain ⟨-, -, -, -, -, -, e0, e1, -⟩ := idx_facts t
  show V m c main_v1 (((cfg0.win 3).blk t).view.emb (ix2 (0 : Fin 1) q)) = V m c main_v1 (ix2 (0 : Fin 1) (ocol t q))
  have h : ((cfg0.win 3).blk t).view.emb (ix2 (0 : Fin 1) q) = ix2 (0 : Fin 1) (ocol t q) := by
    funext a; apply Fin.ext
    match a with
    | ⟨0, _⟩ => show win0_3.index t (0 : Fin 2) * 1 + 1 * 0 = 0; omega
    | ⟨1, _⟩ => show win0_3.index t (1 : Fin 2) * 512 + 1 * q.val = win0_6.index t (1 : Fin 2) * 512 + q.val; omega
  rw [h]

theorem blk_A (k : Fin 4096) (r : Fin 16) :
    (iblk m c 4 t : Vec Ideal S4096x16 .f32) (ix2 k r) = V m c main_arg4 (ix2 k r) := by
  obtain ⟨-, -, -, -, -, -, -, -, e0, e1, -⟩ := idx_facts t
  show V m c main_arg4 (((cfg0.win 4).blk t).view.emb (ix2 k r)) = V m c main_arg4 (ix2 k r)
  have h : ((cfg0.win 4).blk t).view.emb (ix2 k r) = ix2 k r := by
    funext a; apply Fin.ext
    match a with
    | ⟨0, _⟩ => show win0_4.index t (0 : Fin 2) * 4096 + 1 * k.val = k.val; omega
    | ⟨1, _⟩ => show win0_4.index t (1 : Fin 2) * 16 + 1 * r.val = r.val; omega
  rw [h]

theorem blk_B (r : Fin 16) (q : Fin 512) :
    (iblk m c 5 t : Vec Ideal S16x512 .f32) (ix2 r q) = V m c main_arg5 (ix2 r (ocol t q)) := by
  obtain ⟨-, -, -, -, -, -, -, -, -, -, e0, e1, -⟩ := idx_facts t
  show V m c main_arg5 (((cfg0.win 5).blk t).view.emb (ix2 r q)) = V m c main_arg5 (ix2 r (ocol t q))
  have h : ((cfg0.win 5).blk t).view.emb (ix2 r q) = ix2 r (ocol t q) := by
    funext a; apply Fin.ext
    match a with
    | ⟨0, _⟩ => show win0_5.index t (0 : Fin 2) * 16 + 1 * r.val = r.val; omega
    | ⟨1, _⟩ => show win0_5.index t (1 : Fin 2) * 512 + 1 * q.val = win0_6.index t (1 : Fin 2) * 512 + q.val; omega
  rw [h]

end Blocks

/-! ## What a point writes back, the cover, the array after the region -/

/-- The region's array, of the arrays as the region finds them. -/
abbrev region (c : Dev nD) : S8192x4096.Idx → EReal :=
  regionOf (V m c main_v0) (V m c main_arg1) (V m c main_arg2) (V m c main_v1) (V m c main_arg4) (V m c main_arg5)

/-- What point `t` writes back is block `t` of `region`. -/
theorem flushed_eq (c : Dev nD) (t : Fin cfg0.N) :
    (dats m 0 c).flushed 6 t = ((cfg0.win 6).blk t).view.read (Elt Ideal) (region m c) := by
  show (cfg0.win 6).cut (grid0.coords t) ((dats m 0 c).after 6 t) = _
  rw [after0_6]
  unfold outsAt0
  rw [out_eq_blockVal c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) (iblk m c 5 t)]
  funext y
  obtain ⟨p, q, rfl⟩ : ∃ (p : Fin 256) (q : Fin 512), y = ix2 p q := ⟨y 0, y 1, eq_ix2 y⟩
  show blockVal (F := Ideal) (iblk m c 0 t) (iblk m c 1 t) (iblk m c 2 t) (iblk m c 3 t) (iblk m c 4 t) (iblk m c 5 t) (ix2 p q)
    = region m c (((cfg0.win 6).blk t).view.emb (ix2 p q))
  rw [emb_out, blockVal_apply, rowOut_eq_chunks]
  simp only [blk_x m c t, blk_q m c t, blk_s m c t, blk_b m c t, blk_A m c t, blk_B m c t]
  rfl

/-- An index of the array is in point `t`'s block iff each coordinate is in the block's range on its axis. -/
theorem mem_blk (t : Fin cfg0.N) (i : S8192x4096.Idx) :
    i ∈ ((cfg0.win 6).blk t).view.set ↔ ∀ a : Fin 2, win0_6.index t a * S256x512.size a ≤ (i a).val ∧ (i a).val < win0_6.index t a * S256x512.size a + S256x512.size a := by
  show i ∈ ((View.whole main_v2).slice (win0_6.rect t)).set ↔ _
  rw [View.set_slice_whole, Rect.mem_set_unit]
  exact Iff.rfl

/-- The blocks tile the array: row `r` and column `o` lie in the block of the point with block index `(r / 256, o / 512)`. -/
theorem cover (i : S8192x4096.Idx) :
    ∃ t : Fin cfg0.N, (cfg0.win 6).flush t = true ∧ i ∈ ((cfg0.win 6).blk t).view.set := by
  have hi0 : (i 0).val < 8192 := (i 0).isLt
  have hi1 : (i 1).val < 4096 := (i 1).isLt
  obtain ⟨t, ht⟩ := idx_onto ⟨(i 0).val / 256, by omega⟩ ⟨(i 1).val / 512, by omega⟩
  have q0 : win0_6.index t (0 : Fin 2) = (i 0).val / 256 := congrFun ht 0
  have q1 : win0_6.index t (1 : Fin 2) = (i 1).val / 512 := congrFun ht 1
  refine ⟨t, flush0_6 t, ?_⟩
  rw [mem_blk]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 512 ≤ (i 1).val ∧ (i 1).val < win0_6.index t (1 : Fin 2) * 512 + 512; omega

/-- The array after the region. -/
theorem final (c : Dev nD) : (dats m 0 c).arrAt 6 cfg0.N = region m c :=
  (dats m 0 c).arrAt_eq_of_cover 6 (region m c) (fun t _ => flushed_eq m c t) cover

end Cert.QLora.Kernel

end
-- ==== Proof.KernelRun.lean ====
/-
  The kernel's run, read: its result array is the specification of the argument arrays.

  The region's array is `region` of the arrays the region finds. Two of those were written by reshapes before the
  region — the tokens flattened to 8192 rows, the bias as a 1 × 4096 row — and the result is reshaped back after it.
  A reshape keeps row-major positions: row `1024 b + s` of the flattened tokens is token `(b, s)`, entry `(0, o)` of
  the bias row is bias `o`, and element `(b, s, o)` of the result is element `(1024 b + s, o)` of the region's array.
-/
import proofs.«146389_j10505490006718_1_alg».proof.Proof.KernelValue

set_option maxRecDepth 16384

noncomputable section

open Idealize.ShloMosaic Idealize.ShloMosaic.TcCoe Idealize.SL.Sem Idealize.ShloMosaic.ValueIdx
open Idealize.ShloMosaic.Pipeline (Dat)

namespace Cert.QLora.Kernel

open Cert.KernelIdeal Cert.KernelIdeal.Gen Cert.QLora Cert.QLora.Body

variable (m : (ℓ : Loc nD τ sig) → Buf (Elt Ideal) ℓ) (ρ : Dev nD → PrngReg)

/-! ## The reshapes before the region -/

/-- The region finds the tokens flattened, -/
theorem V_tokens (c : Dev nD) :
    (V m c main_v0 : S8192x4096.Idx → EReal)
      = shapeCast S8192x4096 (m ((c : Thread nD τ).loc main_arg0)) Facts₀.shapeCasts_S8x1024x4096_S8192x4096 := by
  show StableHlo.after hostOps0 (fun b => m (c, b)) (Proc.devRef .tc main_v0) = _
  after_results
  rfl

/-- and the bias as a row. -/
theorem V_bias (c : Dev nD) :
    (V m c main_v1 : S1x4096.Idx → EReal)
      = shapeCast S1x4096 (m ((c : Thread nD τ).loc main_arg3)) Facts₀.shapeCasts_S4096_S1x4096 := by
  show StableHlo.after hostOps0 (fun b => m (c, b)) (Proc.devRef .tc main_v1) = _
  after_results
  rfl

/-- Row `1024 b + s` of the flattened tokens is token `(b, s)`. -/
theorem tokens_apply (x : S8x1024x4096.Idx → EReal) (b : Fin 8) (s : Fin 1024) (k : Fin 4096) :
    shapeCast S8192x4096 x Facts₀.shapeCasts_S8x1024x4096_S8192x4096
        (ix2 (⟨1024 * b.val + s.val, by have := b.isLt; have := s.isLt; omega⟩ : Fin 8192) k) = x (ix3 b s k) :=
  shapeCast_apply x _ _ (ix3 b s k) (by
    rw [Shape.rowMajor_val_three, Shape.rowMajor_val_two]
    show (b.val * 1024 + s.val) * 4096 + k.val = (1024 * b.val + s.val) * 4096 + k.val
    omega)

/-- Entry `(0, o)` of the bias row is bias `o`. -/
theorem bias_apply (x : S4096.Idx → EReal) (o : Fin 4096) :
    shapeCast S1x4096 x Facts₀.shapeCasts_S4096_S1x4096 (ix2 (0 : Fin 1) o) = x (ix1 o) :=
  shapeCast_apply x _ _ (ix1 o) (by
    rw [Shape.rowMajor_val_one, Shape.rowMajor_val_two]
    show o.val = 0 * 4096 + o.val
    omega)

/-! ## The reshape after the region -/

/-- The region's array, reshaped back to `[8, 1024, 4096]`, is the specification of the argument arrays. -/
theorem reshaped_region (c : Dev nD) :
    shapeCast S8x1024x4096 (region m c) Facts₀.shapeCasts_S8192x4096_S8x1024x4096
      = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  funext i
  obtain ⟨b, s, o, rfl⟩ : ∃ (b : Fin 8) (s : Fin 1024) (o : Fin 4096), i = ix3 b s o := ⟨i 0, i 1, i 2, eq_ix3 i⟩
  have hb := b.isLt
  have hs := s.isLt
  rw [shapeCast_apply (region m c) Facts₀.shapeCasts_S8192x4096_S8x1024x4096 (ix3 b s o)
    (ix2 (⟨1024 * b.val + s.val, by omega⟩ : Fin 8192) o) (by
      rw [Shape.rowMajor_val_three, Shape.rowMajor_val_two]
      show (1024 * b.val + s.val) * 4096 + o.val = (b.val * 1024 + s.val) * 4096 + o.val
      omega)]
  show rowOut (fun k => V m c main_v0 (ix2 (⟨1024 * b.val + s.val, by omega⟩ : Fin 8192) k))
      (fun k => V m c main_arg1 (ix2 o k)) (fun j => V m c main_arg2 (ix2 o j)) (V m c main_v1 (ix2 (0 : Fin 1) o))
      (fun k r => V m c main_arg4 (ix2 k r)) (fun r => V m c main_arg5 (ix2 r o)) = _
  have hx : ∀ k : Fin 4096, V m c main_v0 (ix2 (⟨1024 * b.val + s.val, by omega⟩ : Fin 8192) k)
      = m ((c : Thread nD τ).loc main_arg0) (ix3 b s k) := fun k => by
    rw [V_tokens]; exact tokens_apply _ b s k
  have hbias : V m c main_v1 (ix2 (0 : Fin 1) o) = m ((c : Thread nD τ).loc main_arg3) (ix1 o) := by
    rw [V_bias]; exact bias_apply _ o
  rw [V_main_arg1, V_main_arg2, V_main_arg4, V_main_arg5, hbias]
  simp only [hx]
  rfl

/-- So @main's result buffer ends at the specification: the tail's reshape of the region's array. -/
theorem tail_eq (c : Dev nD) :
    Pipeline.afterTail₀ cfgs (dats m) 0 (V0 m) [hostOps1] c main_v3
      = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  unfold Pipeline.afterTail₀
  show StableHlo.after hostOps1 _ (Proc.devRef .tc main_v3) = _
  after_results
  rw [(Pipeline.withArrays_arr spec0 launch0.win.arr_inj c _ _ 6).trans (final m c)]
  exact reshaped_region m c

/-! ## The run -/

/-- Every weakly fair execution of the idealized kernel terminates with the result array at the specification of the
    argument arrays, and the argument arrays unchanged. -/
theorem run : θ_run defs (onTc (τ := τ) (main (F := Ideal))) ⟨m, fun _ => 0, ρ⟩ fun r => ∀ c : Dev nD,
      r.2.mem ((c.tc : Thread nD τ).loc main_v3)
        = result (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.QLora.Kernel

end
-- ==== Proof.RefStages.lean ====
/-
  The reference, read one operation at a time at an index, is the specification: its dequantisation
  (convert, subtract 8, reshape to runs of 64, multiply by the broadcast scales, reshape back) reads code `(o, k)` and
  scale `(o, k / 64)`; its three contractions are plain sums at the ideal instance; the bias and the factor two are
  broadcasts of their operands. Only index arithmetic is left: a row-major position `o · 4096 + k` splits back into
  `(o, k / 64, k % 64)` and `(o, k)`.
-/
import proofs.«146389_j10505490006718_1_alg».proof.Defs
import proofs.«146389_j10505490006718_1_alg».proof.Proof.Gen.ReferenceIdeal.Read
import proofs.«146389_j10505490006718_1_alg».proof.Proof.QLoraSpec
import Idealize.ShloMosaic.Lib.ValueIdx
import Idealize.ShloMosaic.Lib.Pipeline.Value
import Idealize.ShloMosaic.PureOps.Ideal.Laws

noncomputable section

namespace Cert.QLora.Ref

open Idealize.ShloMosaic Idealize.ShloMosaic.ValueIdx Cert.ReferenceIdeal Cert.ReferenceIdeal.Read Cert.QLora

/-- The token's row of `x` the first contraction reads. -/
theorem lhs_row (i : S8x1024x4096.Idx) (k : Fin 4096) : lidx_main_v8 i k = ix3 (i 0) (i 1) k :=
  funext fun a => match a with | ⟨0, _⟩ => rfl | ⟨1, _⟩ => rfl | ⟨2, _⟩ => rfl

/-- The code the dequantised weight `(o, k)` is built from is code `(o, k)`. -/
theorem code_idx (i : S8x1024x4096.Idx) (k : Fin 4096) :
    idx_main_v3 (idx_main_v7 (ridx_main_v8 i k)) = ix2 (i 2) k := by
  have h2 : (i 2).val < 4096 := (i 2).isLt
  have hk : k.val < 4096 := k.isLt
  funext a
  apply Fin.ext
  match a with
  | ⟨0, _⟩ =>
    show ((((i 2).val * 4096 + k.val) / 4096 * 64 + ((i 2).val * 4096 + k.val) / 64 % 64) * 64 + ((i 2).val * 4096 + k.val) % 64) / 4096 = (i 2).val
    omega
  | ⟨1, _⟩ =>
    show ((((i 2).val * 4096 + k.val) / 4096 * 64 + ((i 2).val * 4096 + k.val) / 64 % 64) * 64 + ((i 2).val * 4096 + k.val) % 64) % 4096 = k.val
    omega

/-- Its scale is scale `(o, k / 64)`. -/
theorem scale_idx (i : S8x1024x4096.Idx) (k : Fin 4096) :
    idx_main_v4 (idx_main_v5 (idx_main_v7 (ridx_main_v8 i k))) = ix2 (i 2) ⟨k.val / 64, by have := k.isLt; omega⟩ := by
  have h2 : (i 2).val < 4096 := (i 2).isLt
  have hk : k.val < 4096 := k.isLt
  funext a
  apply Fin.ext
  match a with
  | ⟨0, _⟩ =>
    show ((i 2).val * 4096 + k.val) / 4096 = (i 2).val
    omega
  | ⟨1, _⟩ =>
    show ((i 2).val * 4096 + k.val) / 64 % 64 = k.val / 64
    omega

/-- The bias broadcast reads bias `o`. -/
theorem bias_idx (i : S8x1024x4096.Idx) : idx_main_v9 (idx_main_v10 i) = ix1 (i 2) :=
  funext fun a => match a with | ⟨0, _⟩ => rfl

/-- The low-rank contractions read the token's row of `x`, entry `(k, r)` of the first factor, entry `(r, o)` of the second. -/
theorem lora_lhs (i : S8x1024x4096.Idx) (r : Fin 16) (k : Fin 4096) :
    lidx_main_v12 (lidx_main_v13 i r) k = ix3 (i 0) (i 1) k :=
  funext fun a => match a with | ⟨0, _⟩ => rfl | ⟨1, _⟩ => rfl | ⟨2, _⟩ => rfl
theorem lora_A (i : S8x1024x4096.Idx) (r : Fin 16) (k : Fin 4096) :
    ridx_main_v12 (lidx_main_v13 i r) k = ix2 k r :=
  funext fun a => match a with | ⟨0, _⟩ => rfl | ⟨1, _⟩ => rfl
theorem lora_B (i : S8x1024x4096.Idx) (r : Fin 16) : ridx_main_v13 i r = ix2 r (i 2) :=
  funext fun a => match a with | ⟨0, _⟩ => rfl | ⟨1, _⟩ => rfl

/-- The reference's last stage is the specification, index by index. -/
theorem stage_eq_result (x0 : (⟨S8x1024x4096, .f32⟩ : BufTy).Contents (Elt Ideal)) (x1 : (⟨S4096x4096, .i32⟩ : BufTy).Contents (Elt Ideal))
    (x2 : (⟨S4096x64, .f32⟩ : BufTy).Contents (Elt Ideal)) (x3 : (⟨S4096, .f32⟩ : BufTy).Contents (Elt Ideal))
    (x4 : (⟨S4096x16, .f32⟩ : BufTy).Contents (Elt Ideal)) (x5 : (⟨S16x4096, .f32⟩ : BufTy).Contents (Elt Ideal)) :
    val_main_v16 (F := Ideal) x0 x1 x2 x3 x4 x5 = result x0 x1 x2 x3 x4 x5 := by
  funext i
  rw [val_main_v16_apply, val_main_v11_apply, val_main_v15_apply, val_main_v8_apply, val_main_v10_apply,
    val_main_v9_apply, val_main_v13_apply, val_main_v14_apply, val_main_cst_0_apply]
  simp only [val_main_v12_apply, val_main_v7_apply, val_main_v6_apply, val_main_v3_apply, val_main_v2_apply,
    val_main_v0_apply, val_main_v1_apply, val_main_cst_apply, val_main_v5_apply, val_main_v4_apply,
    lhs_row, code_idx, scale_idx, bias_idx, lora_lhs, lora_A, lora_B,
    Ideal.addf_def, Ideal.mulf_def, Ideal.subf_def, Ideal.ofBits_def]
  rfl

end Cert.QLora.Ref

end
-- ==== Proof.lean ====
/-
  The kernel is a linear layer with 4-bit-style quantised weights and a rank-16 correction: each output element is

      (Σ_k x_k · ((q_k − 8) · s_{k / 64}) + bias) + (Σ_r (Σ_k x_k · A_{k r}) · B_r) · 2,

  over 4096 input features `k`. The kernel computes it for a 256 × 512 block of (token, output feature) pairs per grid
  point, walking the input features in four slices of 1024 and accumulating the partial products of each slice in two
  scratch buffers that start at zero; the reference contracts all 4096 features at once with three einsums.

  At the ideal instance (exact extended-real arithmetic, roundings to bf16 the identity) the two agree: the only
  difference is the grouping of a finite sum, and addition on the extended reals is commutative and associative at the
  infinities too, so the finiteness precondition is never opened. Both programs' result arrays are shown to be ONE
  function of the argument arrays (`Cert.QLora.result`): the kernel's through the block each grid point writes back,
  the tiling of the output by the blocks and the three reshapes around the region; the reference's by reading its
  nineteen operations at an index.

  The three frames are the generated frame certificates (for the reference, its generated run with the result
  dropped); the idealisation rewrote no operation, so there is nothing to preserve.
-/
import proofs.«146389_j10505490006718_1_alg».proof.Defs
import proofs.«146389_j10505490006718_1_alg».proof.Proof.Gen.Kernel
import proofs.«146389_j10505490006718_1_alg».proof.Proof.Gen.Kernel.Skeleton
import proofs.«146389_j10505490006718_1_alg».proof.Proof.Gen.Kernel.Launch
import proofs.«146389_j10505490006718_1_alg».proof.Proof.Gen.Kernel.Points
import proofs.«146389_j10505490006718_1_alg».proof.Proof.Gen.Kernel.Frame
import proofs.«146389_j10505490006718_1_alg».proof.Proof.Gen.KernelIdeal
import proofs.«146389_j10505490006718_1_alg».proof.Proof.Gen.KernelIdeal.Skeleton
import proofs.«146389_j10505490006718_1_alg».proof.Proof.Gen.KernelIdeal.Launch
import proofs.«146389_j10505490006718_1_alg».proof.Proof.Gen.KernelIdeal.Points
import proofs.«146389_j10505490006718_1_alg».proof.Proof.Gen.KernelIdeal.Frame
import proofs.«146389_j10505490006718_1_alg».proof.Proof.Gen.ReferenceIdeal
import proofs.«146389_j10505490006718_1_alg».proof.Proof.Gen.ReferenceIdeal.Run
import proofs.«146389_j10505490006718_1_alg».proof.Proof.Gen.ReferenceIdeal.Read
import proofs.«146389_j10505490006718_1_alg».proof.Proof.Gen.Pre_finite_inputs
import proofs.«146389_j10505490006718_1_alg».proof.Proof.KernelRun
import proofs.«146389_j10505490006718_1_alg».proof.Proof.RefStages
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specification of argument arrays that agree. -/
theorem algebraic : Cert.algebraic_KernelIdeal_ReferenceIdeal := by
  intro m ρ m' ρ' _ hagree
  refine ⟨fun c => Cert.QLora.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.QLora.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.QLora.Ref.stage_eq_result,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
